-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1024 : Shape := ⟨2, ![65536, 1024]⟩
abbrev S1x1024x1024 : Shape := ⟨3, ![1, 1024, 1024]⟩
abbrev S1 : Shape := ⟨1, ![1]⟩
abbrev S_ : Shape := ⟨0, ![]⟩

class Facts : Prop where
  bcast_S_S65536x1024 : S_.BroadcastsInDim S65536x1024 (![] : Fin 0 → Fin S65536x1024.rank)
  reducesTo_S65536x1024_S_d0_1 : S65536x1024.ReducesTo [0, 1] S_
  h_S_ : 0 < S_.numel
  bcast_S_S1x1024x1024 : S_.BroadcastsInDim S1x1024x1024 (![] : Fin 0 → Fin S1x1024x1024.rank)
  reducesTo_S1x1024x1024_S_d0_1_2 : S1x1024x1024.ReducesTo [0, 1, 2] S_
  bcast_S_S1 : S_.BroadcastsInDim S1 (![] : Fin 0 → Fin S1.rank)
  reducesTo_S1_S_d0 : S1.ReducesTo [0] S_

variable [Facts]

def fn_part1 {F : FTy → Type} [FloatOps F] (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  main_v18

def fn {F : FTy → Type} [FloatOps F] (main_arg0 : FVec F S65536x1024 .f32) (main_arg1 : FVec F S65536x1024 .f32) (main_arg2 : FVec F S1x1024x1024 .f32) (main_arg3 : FVec F S1 .f32) : IVec S_ 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_c : IVec S_ 1 := constantI S_ 1 1#1
  let main_v3 : IVec S_ 1 := (fun x v => Host.reduce IntOp.andi x v reducesTo_S65536x1024_S_d0_1 h_S_) main_v2 main_c
  let main_v4 : FVec F S65536x1024 .f32 := Host.absf main_arg1
  let main_cst_0 : FVec F S_ .f32 := constant S_ .f32 0x7F800000#32
  let main_v5 : FVec F S65536x1024 .f32 := broadcastInDim S65536x1024 ![] bcast_S_S65536x1024 main_cst_0
  let main_v6 : IVec S65536x1024 1 := cmpf .olt main_v4 main_v5
  let main_c_1 : IVec S_ 1 := constantI S_ 1 1#1
  let main_v7 : IVec S_ 1 := (fun x v => Host.reduce IntOp.andi x v reducesTo_S65536x1024_S_d0_1 h_S_) main_v6 main_c_1
  let main_v8 : IVec S_ 1 := andi main_v3 main_v7
  let main_v9 : FVec F S1x1024x1024 .f32 := Host.absf main_arg2
  let main_cst_2 : FVec F S_ .f32 := constant S_ .f32 0x7F800000#32
  let main_v10 : FVec F S1x1024x1024 .f32 := broadcastInDim S1x1024x1024 ![] bcast_S_S1x1024x1024 main_cst_2
  let main_v11 : IVec S1x1024x1024 1 := cmpf .olt main_v9 main_v10
  let main_c_3 : IVec S_ 1 := constantI S_ 1 1#1
  let main_v12 : IVec S_ 1 := (fun x v => Host.reduce IntOp.andi x v reducesTo_S1x1024x1024_S_d0_1_2 h_S_) main_v11 main_c_3
  let main_v13 : IVec S_ 1 := andi main_v8 main_v12
  let main_v14 : FVec F S1 .f32 := Host.absf main_arg3
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_v13 main_v16
-- ==== Kernel.lean ====
abbrev S65536x1024 : Shape := ⟨2, ![65536, 1024]⟩
abbrev S1x1024x1024 : Shape := ⟨3, ![1, 1024, 1024]⟩
abbrev S1 : Shape := ⟨1, ![1]⟩
abbrev S1024x1024 : Shape := ⟨2, ![1024, 1024]⟩
abbrev S1x1 : Shape := ⟨2, ![1, 1]⟩
abbrev S1x1024 : Shape := ⟨2, ![1, 1024]⟩
abbrev S65535x1024 : Shape := ⟨2, ![65535, 1024]⟩
abbrev S65536x1 : Shape := ⟨2, ![65536, 1]⟩
abbrev S512x1024 : Shape := ⟨2, ![512, 1024]⟩
abbrev S512x1 : Shape := ⟨2, ![512, 1]⟩
abbrev S512 : Shape := ⟨1, ![512]⟩
abbrev S131072x1 : Shape := ⟨2, ![131072, 1]⟩

abbrev nBuf : Space → Nat
  | .hbm => 14
  | .vmem => 12
  | .smem => 0
  | _ => 0

abbrev bufTy : (tb : Table) → Fin (tcTables nBuf tb) → BufTy
  | .hbm, ⟨0, _⟩ => ⟨S65536x1024, .f32⟩
  | .hbm, ⟨1, _⟩ => ⟨S65536x1024, .f32⟩
  | .hbm, ⟨2, _⟩ => ⟨S1x1024x1024, .f32⟩
  | .hbm, ⟨3, _⟩ => ⟨S1, .f32⟩
  | .hbm, ⟨4, _⟩ => ⟨S65536x1024, .bf16⟩
  | .hbm, ⟨5, _⟩ => ⟨S1024x1024, .f32⟩
  | .hbm, ⟨6, _⟩ => ⟨S1024x1024, .bf16⟩
  | .hbm, ⟨7, _⟩ => ⟨S1x1, .f32⟩
  | .hbm, ⟨8, _⟩ => ⟨S1x1024, .f32⟩
  | .hbm, ⟨9, _⟩ => ⟨S65535x1024, .f32⟩
  | .hbm, ⟨10, _⟩ => ⟨S65536x1024, .f32⟩
  | .hbm, ⟨11, _⟩ => ⟨S65536x1, .f32⟩
  | .hbm, ⟨12, _⟩ => ⟨S65536x1, .f32⟩
  | .hbm, ⟨13, _⟩ => ⟨S131072x1, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1024x1024, .bf16⟩
  | .local _ .vmem, ⟨7, _⟩ => ⟨S1x1, .f32⟩
  | .local _ .vmem, ⟨8, _⟩ => ⟨S512x1, .f32⟩
  | .local _ .vmem, ⟨9, _⟩ => ⟨S512x1, .f32⟩
  | .local _ .vmem, ⟨10, _⟩ => ⟨S512x1, .f32⟩
  | .local _ .vmem, ⟨11, _⟩ => ⟨S512x1, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bitsLt_bf16_f32 : FTy.bits .bf16 < FTy.bits .f32
  shapeCasts_S1x1024x1024_S1024x1024 : S1x1024x1024.ShapeCasts S1024x1024
  shapeCasts_S1_S1x1 : S1.ShapeCasts S1x1
  slices_S65536x1024_S1x1024_65534_0 : S65536x1024.Slices ![65534, 0] S1x1024
  slices_S65536x1024_S65535x1024_0_0 : S65536x1024.Slices ![0, 0] S65535x1024
  concatenates_S1x1024_S65535x1024_S65536x1024_d0 : Shape.Concatenates [S1x1024, S65535x1024] S65536x1024 0
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  reduces_S512x1024_S512 : S512x1024.Reduces [1] S512
  shapeCasts_S512_S512x1 : S512.ShapeCasts S512x1
  inb_S512x1_S512x1_0_0 : ∀ a, (![0, 0] : Fin 2 → Nat) a + S512x1.size a ≤ S512x1.size a
  h_S512x1 : 0 < S512x1.numel
  concatenates_S65536x1_S65536x1_S131072x1_d0 : Shape.Concatenates [S65536x1, S65536x1] S131072x1 0
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S65536x1024.size a
  hwx0_0 : ∀ i : grid0.Coords, EltTy.bits .bf16 = 32 ∨ (Rect.block (s := S65536x1024) S512x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S65536x1024.size a
  hwx0_1 : ∀ i : grid0.Coords, EltTy.bits .f32 = 32 ∨ (Rect.block (s := S65536x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S65536x1024.size a
  hwx0_2 : ∀ i : grid0.Coords, EltTy.bits .f32 = 32 ∨ (Rect.block (s := S65536x1024) S512x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1.size a ≤ S65536x1.size a
  hwx0_5 : ∀ i : grid0.Coords, EltTy.bits .f32 = 32 ∨ (Rect.block (s := S65536x1) S512x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1.size a ≤ S65536x1.size a
  hwx0_6 : ∀ i : grid0.Coords, EltTy.bits .f32 = 32 ∨ (Rect.block (s := S65536x1) S512x1.size (cc0_transform_6 i) (hinb0_6 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7_0) S512x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v7_1) S512x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S65536x1024 : Shape := ⟨2, ![65536, 1024]⟩
abbrev S1x1024x1024 : Shape := ⟨3, ![1, 1024, 1024]⟩
abbrev S1 : Shape := ⟨1, ![1]⟩
abbrev S1024x1024 : Shape := ⟨2, ![1024, 1024]⟩
abbrev S_ : Shape := ⟨0, ![]⟩
abbrev S65536 : Shape := ⟨1, ![65536]⟩
abbrev S65536x1 : Shape := ⟨2, ![65536, 1]⟩
abbrev S1x1 : Shape := ⟨2, ![1, 1]⟩
abbrev S1x1024 : Shape := ⟨2, ![1, 1024]⟩
abbrev S65535x1024 : Shape := ⟨2, ![65535, 1024]⟩
abbrev S131072x1 : Shape := ⟨2, ![131072, 1]⟩

abbrev nBuf : Space → Nat
  | .hbm => 24
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x1024, .f32⟩
  | .hbm, ⟨2, _⟩ => ⟨S1x1024x1024, .f32⟩
  | .hbm, ⟨3, _⟩ => ⟨S1, .f32⟩
  | .hbm, ⟨4, _⟩ => ⟨S1024x1024, .f32⟩
  | .hbm, ⟨5, _⟩ => ⟨S65536x1024, .f32⟩
  | .hbm, ⟨6, _⟩ => ⟨S65536x1024, .f32⟩
  | .hbm, ⟨7, _⟩ => ⟨S_, .f32⟩
  | .hbm, ⟨8, _⟩ => ⟨S65536, .f32⟩
  | .hbm, ⟨9, _⟩ => ⟨S65536x1, .f32⟩
  | .hbm, ⟨10, _⟩ => ⟨S1x1, .f32⟩
  | .hbm, ⟨11, _⟩ => ⟨S65536x1, .f32⟩
  | .hbm, ⟨12, _⟩ => ⟨S65536x1, .f32⟩
  | .hbm, ⟨13, _⟩ => ⟨S1x1024, .f32⟩
  | .hbm, ⟨14, _⟩ => ⟨S65535x1024, .f32⟩
  | .hbm, ⟨15, _⟩ => ⟨S65536x1024, .f32⟩
  | .hbm, ⟨16, _⟩ => ⟨S65536x1024, .f32⟩
  | .hbm, ⟨17, _⟩ => ⟨S_, .f32⟩
  | .hbm, ⟨18, _⟩ => ⟨S65536, .f32⟩
  | .hbm, ⟨19, _⟩ => ⟨S65536x1, .f32⟩
  | .hbm, ⟨20, _⟩ => ⟨S1x1, .f32⟩
  | .hbm, ⟨21, _⟩ => ⟨S65536x1, .f32⟩
  | .hbm, ⟨22, _⟩ => ⟨S65536x1, .f32⟩
  | .hbm, ⟨23, _⟩ => ⟨S131072x1, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]

class Facts₀ : Prop where
  shapeCasts_S1x1024x1024_S1024x1024 : S1x1024x1024.ShapeCasts S1024x1024
  reducesTo_S65536x1024_S65536_d1 : S65536x1024.ReducesTo [1] S65536
  h_S_ : 0 < S_.numel
  bcast_S65536_S65536x1_0 : S65536.BroadcastsInDim S65536x1 (![0] : Fin 1 → Fin S65536x1.rank)
  bcast_S1_S1x1_1 : S1.BroadcastsInDim S1x1 (![1] : Fin 1 → Fin S1x1.rank)
  bcast_S1x1_S65536x1_0_1 : S1x1.BroadcastsInDim S65536x1 (![0, 1] : Fin 2 → Fin S65536x1.rank)
  slices_S65536x1024_S1x1024_65534_0 : S65536x1024.Slices ![65534, 0] S1x1024
  slices_S65536x1024_S65535x1024_0_0 : S65536x1024.Slices ![0, 0] S65535x1024
  concatenates_S1x1024_S65535x1024_S65536x1024_d0 : Shape.Concatenates [S1x1024, S65535x1024] S65536x1024 0
  concatenates_S65536x1_S65536x1_S131072x1_d0 : Shape.Concatenates [S65536x1, S65536x1] S131072x1 0
  dot_S65536x1024_S1024x1024_S65536x1024_1_0_0_1_n_n_wf : DotDims.WF S65536x1024 S1024x1024 S65536x1024 [1] [0] [0] [1] [] []

variable [Facts₀]

def dot_S65536x1024_S1024x1024_S65536x1024_1_0_0_1_n_n : DotDims S65536x1024 S1024x1024 S65536x1024 where
  lhsContracting := [1]
  rhsContracting := [0]
  lhsNonContracting := [0]
  rhsNonContracting := [1]
  lhsBatch := []
  rhsBatch := []
  wf := dot_S65536x1024_S1024x1024_S65536x1024_1_0_0_1_n_n_wf

class Facts : Prop extends Facts₀ where

variable [Facts]
-- ==== Proof.Score.lean ====
/-
  The specification both programs meet at the exact (extended-real) reading.

  For a row `r` of the node embeddings, a weight matrix `W`, a bias `b` and a context array `c`, the bilinear score is
      rowScore node W b c r = Σ_j (Σ_k node(r,k) · W(k,j)) · c(r,j) + b,
  the inner sum being entry (r, j) of the product node · W. `score` is the column [65536, 1] of these numbers. The
  result of either program is two such columns joined along the rows: the first scored against the context rows
  themselves, the second against the context rows shifted down by one (row 65534 put in front, the last row dropped).
  Nothing here needs the entries to be finite: the two programs form the same sums of the same products, so only the
  reading of each operation at an index is used, never distributivity or cancellation.
-/
import Idealize.ShloMosaic.PureOps.Ideal
import Idealize.ShloMosaic.Lib.ValueIdx

noncomputable section

namespace Cert.Bilinear

open Idealize.ShloMosaic Idealize.ShloMosaic.ValueIdx

/-- The score of row `r`: the row of `node · W` paired with row `r` of `c`, plus the bias. -/
def rowScore (node : (⟨2, ![65536, 1024]⟩ : Shape).Idx → EReal) (W : (⟨2, ![1024, 1024]⟩ : Shape).Idx → EReal) (b : EReal)
    (c : (⟨2, ![65536, 1024]⟩ : Shape).Idx → EReal) (r : Fin 65536) : EReal :=
  (∑ j : Fin 1024, (∑ k : Fin 1024, node (ix2 r k) * W (ix2 k j)) * c (ix2 r j)) + b

/-- The column of all rows' scores. -/
def score (node : (⟨2, ![65536, 1024]⟩ : Shape).Idx → EReal) (W : (⟨2, ![1024, 1024]⟩ : Shape).Idx → EReal) (b : EReal)
    (c : (⟨2, ![65536, 1024]⟩ : Shape).Idx → EReal) : (⟨2, ![65536, 1]⟩ : Shape).Idx → EReal :=
  fun i => rowScore node W b c ⟨(i 0).val, idx2_lt0 i⟩

/-- At the index built from a row and the one column, the column reads that row's score. -/
theorem score_ix2 (node : (⟨2, ![65536, 1024]⟩ : Shape).Idx → EReal) (W : (⟨2, ![1024, 1024]⟩ : Shape).Idx → EReal) (b : EReal)
    (c : (⟨2, ![65536, 1024]⟩ : Shape).Idx → EReal) (r : Fin 65536) (q : Fin 1) :
    score node W b c (ix2 r q) = rowScore node W b c r := rfl

end Cert.Bilinear

end
-- ==== Proof.Payload.lean ====
/-
  The kernel's two stored payloads read at an index, at the exact (extended-real) values.

  Each payload is: the product of the two loaded matrices accumulated into the zero splat; times a third loaded
  array, entry by entry; summed along the lanes (axis 1); reshaped from [512] to the column [512, 1]; plus the one
  entry of the [1, 1] bias, broadcast. Read at (p, q) that is
      Σ_j (Σ_k v0(p,k) · v2(k,j)) · c(p,j) + v5(0,0),
  c being the third array. The steps: the matrix product at (p, j) is the sum over the one contracted axis of the
  operands' products, re-indexed through that axis's one coordinate; the lane sum at p is the sum over j of the
  entries (p, j); the reshape to a column reads entry p (same row-major position); the identity reshapes vanish;
  the extracted scalar is the bias at the index whose two coordinates are 0. Nothing needs finiteness.
-/
import proofs.«132694_j23003844838033_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.Bilinear.Payload

open Cert.KernelIdeal Cert.KernelIdeal.Gen Idealize.ShloMosaic Idealize.ShloMosaic.ValueIdx

/-! ## The matrix product's operand indices, coordinate by coordinate -/

/-- The left operand's row coordinate is the output's row. -/
theorem lhs_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide),
    dif_pos (show (0 : Fin S512x1024.rank) ∈ dot_S512x1024_S1024x1024_S512x1024_1_0_0_1_n_n.lhsNonContracting by decide)]
  rfl

/-- The left operand's column coordinate is the contraction position. -/
theorem lhs_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q

/-- The right operand's row coordinate is the contraction position. -/
theorem rhs_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q

/-- The right operand's column coordinate is the output's column. -/
theorem rhs_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide),
    dif_pos (show (1 : Fin S1024x1024.rank) ∈ dot_S512x1024_S1024x1024_S512x1024_1_0_0_1_n_n.rhsNonContracting by decide)]
  rfl

/-! ## The matrix product at an index -/

/-- The product of the two loaded matrices, accumulated into the zero splat, at (p, j): Σ_k v0(p,k) · v2(k,j). -/
theorem pay1_apply (v0 : Vec Ideal S512x1024 .bf16) (v2 : Vec Ideal S1024x1024 .bf16) (p : Fin 512) (j : Fin 1024) :
    k0_pay1 (F := Ideal) v0 v2 (ix2 p j) = ∑ k : Fin 1024, v0 (ix2 p k) * v2 (ix2 k j) := by
  unfold k0_pay1
  rw [shapeCast_self, shapeCast_self]
  refine (Ideal.matmul_constant_zero_apply (φ₁ := .bf16) (φ₂ := .bf16) dot_S512x1024_S1024x1024_S512x1024_1_0_0_1_n_n none v0 v2
    (ix2 p j)).trans ?_
  rw [← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 p j)
      ((contrEquiv1 dot_S512x1024_S1024x1024_S512x1024_1_0_0_1_n_n 1024 rfl rfl).symm k) = ix2 p k :=
    funext fun a => Fin.ext (by
      match a with
      | ⟨0, _⟩ => exact lhs_0 _ _
      | ⟨1, _⟩ => exact (lhs_1 _ _).trans hk)
  have er : dot_S512x1024_S1024x1024_S512x1024_1_0_0_1_n_n.rhsIdx (ix2 p j)
      ((contrEquiv1 dot_S512x1024_S1024x1024_S512x1024_1_0_0_1_n_n 1024 rfl rfl).symm k) = ix2 k j :=
    funext fun a => Fin.ext (by
      match a with
      | ⟨0, _⟩ => exact (rhs_0 _ _).trans hk
      | ⟨1, _⟩ => exact rhs_1 _ _)
  rw [el, er]

/-! ## The extracted bias -/

/-- The scalar extracted at position [0, 0] is the bias at the index whose two coordinates are 0. -/
theorem pay2_eq (v5 : Vec Ideal S1x1 .f32) : k0_pay2 (F := Ideal) v5 = v5 (ix2 0 0) := by
  unfold k0_pay2 extractAt
  exact congrArg v5 (funext fun a => Fin.ext (by match a with | ⟨0, _⟩ => rfl | ⟨1, _⟩ => rfl))

/-! ## The lane sum, the reshape to a column and the bias -/

/-- The sum along the lanes at row p: Σ_j m(p,j). -/
theorem laneSum_apply (m : FVec Ideal S512x1024 .f32) (hφ : FKind.Formats .f32)
    (hacc : (0x00000000#32 : BitVec (FTy.bits .f32)) = FKind.add.neutral .f32 hφ) (p : Fin 512) :
    multiReduction (F := Ideal) .add [1] S512 m 0x00000000#32 reduces_S512x1024_S512 hφ hacc (ix1 p)
      = ∑ j : Fin 1024, m (ix2 p j) := by
  refine (Ideal.multiReduction_add_single m 0x00000000#32 reduces_S512x1024_S512 hφ hacc (ix1 p)).trans ?_
  refine Finset.sum_congr rfl fun k _ => ?_
  exact congrArg m (funext fun a => Fin.ext (by match a with | ⟨0, _⟩ => rfl | ⟨1, _⟩ => rfl))

/-- A [512] vector reshaped to the column [512, 1] reads, at (p, q), its entry p: the two indices have the same
    row-major position. -/
theorem column_apply {α : Type} (x : S512.Idx → α) (h : S512.ShapeCasts S512x1) (p : Fin 512) (q : Fin 1) :
    shapeCast S512x1 x h (ix2 p q) = x (ix1 p) :=
  shapeCast_apply x h (ix2 p q) (ix1 p) (by
    rw [Shape.rowMajor_val_two, Shape.rowMajor_val_one]
    have hq : q.val < 1 := q.isLt
    show p.val = p.val * 1 + q.val
    omega)

/-- The common tail of both payloads: the lane sum of m, as a column, plus the broadcast scalar b. -/
theorem tail_apply (m : FVec Ideal S512x1024 .f32) (b : Ideal .f32) (hφ : FKind.Formats .f32)
    (hacc : (0x00000000#32 : BitVec (FTy.bits .f32)) = FKind.add.neutral .f32 hφ) (p : Fin 512) (q : Fin 1) :
    addf (shapeCast S512x1 (multiReduction (F := Ideal) .add [1] S512 m 0x00000000#32 reduces_S512x1024_S512 hφ hacc)
        shapeCasts_S512_S512x1) (broadcast S512x1 b) (ix2 p q)
      = (∑ j : Fin 1024, m (ix2 p j)) + b := by
  rw [addf_apply, broadcast_apply, column_apply, laneSum_apply]

/-! ## The two payloads -/

/-- The first stored payload at (p, q). -/
theorem pay3_apply (v0 : Vec Ideal S512x1024 .bf16) (v2 : Vec Ideal S1024x1024 .bf16) (v5 : Vec Ideal S1x1 .f32)
    (v7 : Vec Ideal S512x1024 .f32) (p : Fin 512) (q : Fin 1) :
    k0_pay3 (F := Ideal) v0 v2 v5 v7 (ix2 p q)
      = (∑ j : Fin 1024, (∑ k : Fin 1024, v0 (ix2 p k) * v2 (ix2 k j)) * v7 (ix2 p j)) + v5 (ix2 0 0) := by
  unfold k0_pay3
  refine (tail_apply (mulf (k0_pay1 (F := Ideal) v0 v2) v7) (k0_pay2 (F := Ideal) v5) _ _ p q).trans ?_
  rw [pay2_eq]
  refine congrArg (· + v5 (ix2 0 0)) (Finset.sum_congr rfl fun j _ => ?_)
  rw [mulf_apply, pay1_apply]

/-- The second stored payload at (p, q). -/
theorem pay4_apply (v0 : Vec Ideal S512x1024 .bf16) (v2 : Vec Ideal S1024x1024 .bf16) (v5 : Vec Ideal S1x1 .f32)
    (v14 : Vec Ideal S512x1024 .f32) (p : Fin 512) (q : Fin 1) :
    k0_pay4 (F := Ideal) v0 v2 v5 v14 (ix2 p q)
      = (∑ j : Fin 1024, (∑ k : Fin 1024, v0 (ix2 p k) * v2 (ix2 k j)) * v14 (ix2 p j)) + v5 (ix2 0 0) := by
  unfold k0_pay4
  rw [shapeCast_self]
  refine (tail_apply (mulf (k0_pay1 (F := Ideal) v0 v2) v14) (k0_pay2 (F := Ideal) v5) _ _ p q).trans ?_
  rw [pay2_eq]
  refine congrArg (· + v5 (ix2 0 0)) (Finset.sum_congr rfl fun j _ => ?_)
  rw [mulf_apply, pay1_apply]

end Cert.Bilinear.Payload

end
-- ==== Proof.Blocks.lean ====
/-
  From blocks to arrays: what the kernel's two result arrays hold after its 128 grid points.

  The grid runs over the 128 row blocks of 512 rows. At point `t` the body multiplies the node block (rows 512t … 512t+511)
  by the whole weight matrix, multiplies the product entrywise by the context block and by the shifted-context block,
  sums each over the 1024 lanes, adds the one bias entry, and stores the two [512, 1] columns. Here:
  * the arrays the region finds are the arguments themselves (the changes of float format are the identity on exact
    values), the reshaped weight and bias, and the shifted context (`V_v0` … `V_v6`);
  * each window's block at `t` is its array read at rows `512 t + p` (`node_blk` … `bias_blk`), from the index maps decided
    over the grid (`idx_facts`);
  * so what point `t` writes back is block `t` of the column of scores (`flushed5_eq`, `flushed6_eq`), the blocks tile the
    column (`cover5`, `cover6`), and each result array ends as that column (`final5`, `final6`).
-/
import proofs.«132694_j23003844838033_1_alg».proof.Proof.Gen.KernelIdeal.Frame
import proofs.«132694_j23003844838033_1_alg».proof.Proof.Score
import proofs.«132694_j23003844838033_1_alg».proof.Proof.Payload
import Idealize.ShloMosaic.Lib.Pipeline.Value
import Idealize.ShloMosaic.Lib.ValueIdx
import Idealize.ShloMosaic.Lib.StableHlo.Run

noncomputable section

namespace Cert.Bilinear.Blocks

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## The arrays the region finds -/

/-- The context rows shifted down by one: row 65534 in front, then rows 0 … 65534. -/
abbrev shifted (ctx : FVec Ideal S65536x1024 .f32) : FVec Ideal S65536x1024 .f32 :=
  concatenate S65536x1024 0 [⟨S1x1024, extractStridedSlice S1x1024 ![65534, 0] ctx slices_S65536x1024_S1x1024_65534_0⟩, ⟨S65535x1024, extractStridedSlice S65535x1024 ![0, 0] ctx slices_S65536x1024_S65535x1024_0_0⟩] concatenates_S1x1024_S65535x1024_S65536x1024_d0

/-- The weight matrix: the one [1024, 1024] slab of the [1, 1024, 1024] argument. -/
abbrev weight (W : FVec Ideal S1x1024x1024 .f32) : FVec Ideal S1024x1024 .f32 :=
  shapeCast S1024x1024 W shapeCasts_S1x1024x1024_S1024x1024

/-- The node operand the region stages is the node argument: a change of float format is the identity on exact values. -/
theorem V_v0 (c : Dev nD) : (V m c main_v0 : S65536x1024.Idx → EReal) = (m ((c : Thread nD τ).loc main_arg1) : S65536x1024.Idx → EReal) := by
  show StableHlo.after hostOps0 (fun b => m (c, b)) (Proc.devRef .tc main_v0) = _
  after_results <;> rfl

/-- The weight operand is the reshaped weight argument (again through a format change that is the identity). -/
theorem V_v2 (c : Dev nD) : (V m c main_v2 : S1024x1024.Idx → EReal) = weight (m ((c : Thread nD τ).loc main_arg2)) := by
  show StableHlo.after hostOps0 (fun b => m (c, b)) (Proc.devRef .tc main_v2) = _
  after_results <;> rfl

/-- The bias operand is the bias argument reshaped [1] → [1, 1]. -/
theorem V_v3 (c : Dev nD) : (V m c main_v3 : S1x1.Idx → EReal) = shapeCast S1x1 (m ((c : Thread nD τ).loc main_arg3) : S1.Idx → EReal) shapeCasts_S1_S1x1 := by
  show StableHlo.after hostOps0 (fun b => m (c, b)) (Proc.devRef .tc main_v3) = _
  after_results <;> rfl

/-- The third operand is the shifted context. -/
theorem V_v6 (c : Dev nD) : (V m c main_v6 : S65536x1024.Idx → EReal) = shifted (m ((c : Thread nD τ).loc main_arg0)) := by
  show StableHlo.after hostOps0 (fun b => m (c, b)) (Proc.devRef .tc main_v6) = _
  after_results <;> rfl

/-! ## Where each window's block sits -/

theorem hz2 : (![0, 0] : Fin 2 → Nat) = fun _ => 0 := funext fun a => by fin_cases a <;> rfl

/-- At point `t` the three row-blocked operands and the two results are at row block `t`; the weight and the bias are
    whole. Decided over the 128 points. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- Row `p` of the node block at point `t` is row `512 t + p` of the node argument. -/
theorem node_blk (c : Dev nD) (t : Fin cfg0.N) (p : Fin 512) (k : Fin 1024) (r : Fin 65536) (hr : r.val = 512 * t.val + p.val) :
    (iblk m c 0 t : S512x1024.Idx → EReal) (ix2 p k) = (m ((c : Thread nD τ).loc main_arg1) : S65536x1024.Idx → EReal) (ix2 r k) := by
  obtain ⟨e0, e1, -⟩ := idx_facts t
  show (V m c main_v0 : S65536x1024.Idx → EReal) (((cfg0.win 0).blk t).view.emb (ix2 p k)) = _
  rw [V_v0]
  refine congrArg _ (funext fun a => Fin.ext ?_)
  match a with
  | ⟨0, _⟩ => show win0_0.index t (0 : Fin 2) * 512 + 1 * p.val = r.val; omega
  | ⟨1, _⟩ => show win0_0.index t (1 : Fin 2) * 1024 + 1 * k.val = k.val; omega

/-- Row `p` of the context block at point `t` is row `512 t + p` of the context argument. -/
theorem ctx_blk (c : Dev nD) (t : Fin cfg0.N) (p : Fin 512) (j : Fin 1024) (r : Fin 65536) (hr : r.val = 512 * t.val + p.val) :
    (iblk m c 1 t : S512x1024.Idx → EReal) (ix2 p j) = (m ((c : Thread nD τ).loc main_arg0) : S65536x1024.Idx → EReal) (ix2 r j) := by
  obtain ⟨-, -, e0, e1, -⟩ := idx_facts t
  show (V m c main_arg0 : S65536x1024.Idx → EReal) (((cfg0.win 1).blk t).view.emb (ix2 p j)) = _
  rw [V_main_arg0]
  refine congrArg _ (funext fun a => Fin.ext ?_)
  match a with
  | ⟨0, _⟩ => show win0_1.index t (0 : Fin 2) * 512 + 1 * p.val = r.val; omega
  | ⟨1, _⟩ => show win0_1.index t (1 : Fin 2) * 1024 + 1 * j.val = j.val; omega

/-- Row `p` of the shifted-context block at point `t` is row `512 t + p` of the shifted context. -/
theorem shifted_blk (c : Dev nD) (t : Fin cfg0.N) (p : Fin 512) (j : Fin 1024) (r : Fin 65536) (hr : r.val = 512 * t.val + p.val) :
    (iblk m c 2 t : S512x1024.Idx → EReal) (ix2 p j) = shifted (m ((c : Thread nD τ).loc main_arg0)) (ix2 r j) := by
  obtain ⟨-, -, -, -, e0, e1, -⟩ := idx_facts t
  show (V m c main_v6 : S65536x1024.Idx → EReal) (((cfg0.win 2).blk t).view.emb (ix2 p j)) = _
  rw [V_v6]
  refine congrArg _ (funext fun a => Fin.ext ?_)
  match a with
  | ⟨0, _⟩ => show win0_2.index t (0 : Fin 2) * 512 + 1 * p.val = r.val; omega
  | ⟨1, _⟩ => show win0_2.index t (1 : Fin 2) * 1024 + 1 * j.val = j.val; omega

/-- The weight block at every point is the whole weight matrix. -/
theorem weight_blk (c : Dev nD) (t : Fin cfg0.N) (k j : Fin 1024) :
    (iblk m c 3 t : S1024x1024.Idx → EReal) (ix2 k j) = weight (m ((c : Thread nD τ).loc main_arg2)) (ix2 k j) := by
  obtain ⟨-, -, -, -, -, -, e0, e1, -⟩ := idx_facts t
  show (V m c main_v2 : S1024x1024.Idx → EReal) (((cfg0.win 3).blk t).view.emb (ix2 k j)) = _
  rw [V_v2]
  refine congrArg _ (funext fun a => Fin.ext ?_)
  match a with
  | ⟨0, _⟩ => show win0_3.index t (0 : Fin 2) * 1024 + 1 * k.val = k.val; omega
  | ⟨1, _⟩ => show win0_3.index t (1 : Fin 2) * 1024 + 1 * j.val = j.val; omega

/-- The bias block at every point holds the one bias entry. -/
theorem bias_blk (c : Dev nD) (t : Fin cfg0.N) :
    (iblk m c 4 t : S1x1.Idx → EReal) (ix2 0 0) = (m ((c : Thread nD τ).loc main_arg3) : S1.Idx → EReal) (ix1 0) := by
  obtain ⟨-, -, -, -, -, -, -, -, e0, e1, -⟩ := idx_facts t
  show (V m c main_v3 : S1x1.Idx → EReal) (((cfg0.win 4).blk t).view.emb (ix2 0 0)) = _
  rw [V_v3]
  refine shapeCast_apply _ _ _ _ ?_
  show (S1.rowMajor (ix1 (0 : Fin 1))).val = (S1x1.rowMajor (((cfg0.win 4).blk t).view.emb (ix2 (0 : Fin 1) (0 : Fin 1)))).val
  rw [Shape.rowMajor_val_one, Shape.rowMajor_val_two]
  show 0 = (win0_4.index t (0 : Fin 2) * 1 + 1 * 0) * 1 + (win0_4.index t (1 : Fin 2) * 1 + 1 * 0)
  omega

/-! ## The two result columns -/

/-- The first result column: every row scored against its own context row. -/
def col0 (c : Dev nD) : S65536x1.Idx → EReal :=
  score (m ((c : Thread nD τ).loc main_arg1)) (weight (m ((c : Thread nD τ).loc main_arg2)))
    ((m ((c : Thread nD τ).loc main_arg3) : S1.Idx → EReal) (ix1 0)) (m ((c : Thread nD τ).loc main_arg0))

/-- The second result column: every row scored against the shifted context's row. -/
def col1 (c : Dev nD) : S65536x1.Idx → EReal :=
  score (m ((c : Thread nD τ).loc main_arg1)) (weight (m ((c : Thread nD τ).loc main_arg2)))
    ((m ((c : Thread nD τ).loc main_arg3) : S1.Idx → EReal) (ix1 0)) (shifted (m ((c : Thread nD τ).loc main_arg0)))

/-- Row `p` of result window 5's block at point `t` is row `512 t + p` of its array. -/
theorem out_emb5 (t : Fin cfg0.N) (p : Fin 512) (q : Fin 1) (r : Fin 65536) (hr : r.val = 512 * t.val + p.val) :
    ((cfg0.win 5).blk t).view.emb (ix2 p q) = (ix2 r q : S65536x1.Idx) := by
  obtain ⟨-, -, -, -, -, -, -, -, -, -, e50, e51, e60, e61⟩ := idx_facts t
  funext a; apply Fin.ext
  match a with
  | ⟨0, _⟩ => show win0_5.index t (0 : Fin 2) * 512 + 1 * p.val = r.val; omega
  | ⟨1, _⟩ => show win0_5.index t (1 : Fin 2) * 1 + 1 * q.val = q.val; omega

/-- WHAT POINT `t` WRITES BACK through result window 5 is block `t` of the column of scores against the context: the body's stored value at row `p` is the
    lane sum of (node block · weight)(p, ·) times the block's row `p`, plus the bias, and each block is its array read at
    rows `512 t + p`. -/
theorem flushed5_eq (c : Dev nD) (t : Fin cfg0.N) :
    (dats m 0 c).flushed 5 t = ((cfg0.win 5).blk t).view.read (Elt Ideal) (col0 m c) := by
  have hN : cfg0.N = 128 := N_0
  show (cfg0.win 5).cut (grid0.coords t) ((dats m 0 c).after 5 t) = _
  rw [after0_5]
  unfold out0_5
  rw [View.canon_unit_zero hz2]
  simp only [View.ld_unit_zero (S := S512x1024) hz2, View.ld_unit_zero (S := S1024x1024) hz2, View.ld_unit_zero (S := S1x1) hz2]
  funext y
  obtain ⟨p, q, rfl⟩ : ∃ (p : Fin 512) (q : Fin 1), y = ix2 p q := ⟨y 0, y 1, eq_ix2 y⟩
  have hr : 512 * t.val + p.val < 65536 := by have := t.isLt; have := p.isLt; omega
  show k0_pay3 (iblk m c 0 t) (iblk m c 3 t) (iblk m c 4 t) (iblk m c 1 t) (ix2 p q) = col0 m c (((cfg0.win 5).blk t).view.emb (ix2 p q))
  rw [out_emb5 t p q ⟨512 * t.val + p.val, hr⟩ rfl]
  refine (Payload.pay3_apply (iblk m c 0 t) (iblk m c 3 t) (iblk m c 4 t) (iblk m c 1 t) p q).trans ?_
  unfold col0
  rw [score_ix2]
  unfold rowScore
  exact congrArg₂ (· + ·) (Finset.sum_congr rfl fun j _ => congrArg₂ (· * ·) (Finset.sum_congr rfl fun k _ => congrArg₂ (· * ·) (node_blk m c t p k _ rfl) (weight_blk m c t k j)) (ctx_blk m c t p j _ rfl)) (bias_blk m c t)

/-- An index of result array 5 is in point `t`'s block iff each coordinate is in the block's range on its axis. -/
theorem mem_blk5 (t : Fin cfg0.N) (i : S65536x1.Idx) :
    i ∈ ((cfg0.win 5).blk t).view.set ↔ ∀ a : Fin 2, win0_5.index t a * S512x1.size a ≤ (i a).val ∧ (i a).val < win0_5.index t a * S512x1.size a + S512x1.size a := by
  show i ∈ ((View.whole main_v7_0).slice (win0_5.rect t)).set ↔ _
  rw [View.set_slice_whole, Rect.mem_set_unit]
  exact Iff.rfl

/-- The 128 row blocks tile the column: row `r` is in the block of point `r / 512`. -/
theorem cover5 (i : S65536x1.Idx) : ∃ t : Fin cfg0.N, (cfg0.win 5).flush t = true ∧ i ∈ ((cfg0.win 5).blk t).view.set := by
  have hN : cfg0.N = 128 := N_0
  have hi0 : (i 0).val < 65536 := (i 0).isLt
  have hi1 : (i 1).val < 1 := (i 1).isLt
  have ht : (i 0).val / 512 < cfg0.N := by omega
  obtain ⟨-, -, -, -, -, -, -, -, -, -, e50, e51, e60, e61⟩ := idx_facts ⟨(i 0).val / 512, ht⟩
  refine ⟨⟨(i 0).val / 512, ht⟩, flush0_5 _, ?_⟩
  rw [mem_blk5]
  intro a
  match a with
  | ⟨0, _⟩ =>
    show win0_5.index ⟨(i 0).val / 512, ht⟩ (0 : Fin 2) * 512 ≤ (i 0).val ∧ (i 0).val < win0_5.index ⟨(i 0).val / 512, ht⟩ (0 : Fin 2) * 512 + 512
    rw [e50]; show (i 0).val / 512 * 512 ≤ (i 0).val ∧ (i 0).val < (i 0).val / 512 * 512 + 512; omega
  | ⟨1, _⟩ =>
    show win0_5.index ⟨(i 0).val / 512, ht⟩ (1 : Fin 2) * 1 ≤ (i 1).val ∧ (i 1).val < win0_5.index ⟨(i 0).val / 512, ht⟩ (1 : Fin 2) * 1 + 1
    rw [e51]; omega

/-- THE ARRAY after the run is the column of scores against the context. -/
theorem final5 (c : Dev nD) : (dats m 0 c).arrAt 5 cfg0.N = col0 m c :=
  (dats m 0 c).arrAt_eq_of_cover 5 (col0 m c) (fun t _ => flushed5_eq m c t) cover5

/-- Row `p` of result window 6's block at point `t` is row `512 t + p` of its array. -/
theorem out_emb6 (t : Fin cfg0.N) (p : Fin 512) (q : Fin 1) (r : Fin 65536) (hr : r.val = 512 * t.val + p.val) :
    ((cfg0.win 6).blk t).view.emb (ix2 p q) = (ix2 r q : S65536x1.Idx) := by
  obtain ⟨-, -, -, -, -, -, -, -, -, -, e50, e51, e60, e61⟩ := idx_facts t
  funext a; apply Fin.ext
  match a with
  | ⟨0, _⟩ => show win0_6.index t (0 : Fin 2) * 512 + 1 * p.val = r.val; omega
  | ⟨1, _⟩ => show win0_6.index t (1 : Fin 2) * 1 + 1 * q.val = q.val; omega

/-- WHAT POINT `t` WRITES BACK through result window 6 is block `t` of the column of scores against the shifted context: the body's stored value at row `p` is the
    lane sum of (node block · weight)(p, ·) times the block's row `p`, plus the bias, and each block is its array read at
    rows `512 t + p`. -/
theorem flushed6_eq (c : Dev nD) (t : Fin cfg0.N) :
    (dats m 0 c).flushed 6 t = ((cfg0.win 6).blk t).view.read (Elt Ideal) (col1 m c) := by
  have hN : cfg0.N = 128 := N_0
  show (cfg0.win 6).cut (grid0.coords t) ((dats m 0 c).after 6 t) = _
  rw [after0_6]
  unfold out0_6
  rw [View.canon_unit_zero hz2]
  simp only [View.ld_unit_zero (S := S512x1024) hz2, View.ld_unit_zero (S := S1024x1024) hz2, View.ld_unit_zero (S := S1x1) hz2]
  funext y
  obtain ⟨p, q, rfl⟩ : ∃ (p : Fin 512) (q : Fin 1), y = ix2 p q := ⟨y 0, y 1, eq_ix2 y⟩
  have hr : 512 * t.val + p.val < 65536 := by have := t.isLt; have := p.isLt; omega
  show k0_pay4 (iblk m c 0 t) (iblk m c 3 t) (iblk m c 4 t) (iblk m c 2 t) (ix2 p q) = col1 m c (((cfg0.win 6).blk t).view.emb (ix2 p q))
  rw [out_emb6 t p q ⟨512 * t.val + p.val, hr⟩ rfl]
  refine (Payload.pay4_apply (iblk m c 0 t) (iblk m c 3 t) (iblk m c 4 t) (iblk m c 2 t) p q).trans ?_
  unfold col1
  rw [score_ix2]
  unfold rowScore
  exact congrArg₂ (· + ·) (Finset.sum_congr rfl fun j _ => congrArg₂ (· * ·) (Finset.sum_congr rfl fun k _ => congrArg₂ (· * ·) (node_blk m c t p k _ rfl) (weight_blk m c t k j)) (shifted_blk m c t p j _ rfl)) (bias_blk m c t)

/-- An index of result array 6 is in point `t`'s block iff each coordinate is in the block's range on its axis. -/
theorem mem_blk6 (t : Fin cfg0.N) (i : S65536x1.Idx) :
    i ∈ ((cfg0.win 6).blk t).view.set ↔ ∀ a : Fin 2, win0_6.index t a * S512x1.size a ≤ (i a).val ∧ (i a).val < win0_6.index t a * S512x1.size a + S512x1.size a := by
  show i ∈ ((View.whole main_v7_1).slice (win0_6.rect t)).set ↔ _
  rw [View.set_slice_whole, Rect.mem_set_unit]
  exact Iff.rfl

/-- The 128 row blocks tile the column: row `r` is in the block of point `r / 512`. -/
theorem cover6 (i : S65536x1.Idx) : ∃ t : Fin cfg0.N, (cfg0.win 6).flush t = true ∧ i ∈ ((cfg0.win 6).blk t).view.set := by
  have hN : cfg0.N = 128 := N_0
  have hi0 : (i 0).val < 65536 := (i 0).isLt
  have hi1 : (i 1).val < 1 := (i 1).isLt
  have ht : (i 0).val / 512 < cfg0.N := by omega
  obtain ⟨-, -, -, -, -, -, -, -, -, -, e50, e51, e60, e61⟩ := idx_facts ⟨(i 0).val / 512, ht⟩
  refine ⟨⟨(i 0).val / 512, ht⟩, flush0_6 _, ?_⟩
  rw [mem_blk6]
  intro a
  match a with
  | ⟨0, _⟩ =>
    show win0_6.index ⟨(i 0).val / 512, ht⟩ (0 : Fin 2) * 512 ≤ (i 0).val ∧ (i 0).val < win0_6.index ⟨(i 0).val / 512, ht⟩ (0 : Fin 2) * 512 + 512
    rw [e60]; show (i 0).val / 512 * 512 ≤ (i 0).val ∧ (i 0).val < (i 0).val / 512 * 512 + 512; omega
  | ⟨1, _⟩ =>
    show win0_6.index ⟨(i 0).val / 512, ht⟩ (1 : Fin 2) * 1 ≤ (i 1).val ∧ (i 1).val < win0_6.index ⟨(i 0).val / 512, ht⟩ (1 : Fin 2) * 1 + 1
    rw [e61]; omega

/-- THE ARRAY after the run is the column of scores against the shifted context. -/
theorem final6 (c : Dev nD) : (dats m 0 c).arrAt 6 cfg0.N = col1 m c :=
  (dats m 0 c).arrAt_eq_of_cover 6 (col1 m c) (fun t _ => flushed6_eq m c t) cover6

end Cert.Bilinear.Blocks

end
-- ==== Proof.KernelRun.lean ====
/-
  The kernel's run, read: after every weakly fair execution the result array holds the two score columns joined along
  the rows, and the four arguments are unchanged.

  The one host operation after the region joins the two result arrays of the region along axis 0. The region leaves
  each of them at its column of scores (the blocks-to-arrays module), and every other buffer as it found it; so the
  joined result is `joined (col0) (col1)`. The arguments: the context is staged by an input window and never written
  back; the other three are touched by no window and by no host operation after the region.
-/
import proofs.«132694_j23003844838033_1_alg».proof.Proof.Blocks

noncomputable section

namespace Cert.Bilinear.KernelRun

open Cert.KernelIdeal Cert.KernelIdeal.Gen Idealize.ShloMosaic Idealize.ShloMosaic.TcCoe Idealize.SL.Sem
open Idealize.ShloMosaic.StableHlo Cert.Bilinear.Blocks
open Idealize.ShloMosaic.Pipeline (Dat)

variable (m : (ℓ : Loc nD τ sig) → Buf (Elt Ideal) ℓ) (ρ : Dev nD → PrngReg)

/-- Two [65536, 1] columns joined along the rows into one [131072, 1] column. -/
def joined (a b : FVec Ideal S65536x1 .f32) : FVec Ideal S131072x1 .f32 :=
  concatenate S131072x1 0 [⟨S65536x1, a⟩, ⟨S65536x1, b⟩] concatenates_S65536x1_S65536x1_S131072x1_d0

/-- The result: the scores against the context on top of the scores against the shifted context. -/
def result (c : Dev nD) : S131072x1.Idx → EReal := joined (col0 m c) (col1 m c)

/-- What the host operation after the region leaves in the result buffer. -/
theorem tail_eq (c : Dev nD) : Pipeline.afterTail₀ cfgs (dats m) 0 (V0 m) [hostOps1] c main_v8 = result m c := by
  have h5 : (Pipeline.withArrays (cfgs 0).spec c (V0 m c) (fun w => (dats m 0 c).arrAt w (cfgs 0).N) (Proc.devRef .tc main_v7_0) : S65536x1.Idx → EReal) = col0 m c :=
    (Pipeline.withArrays_arr spec0 launch0.win.arr_inj c _ _ 5).trans (final5 m c)
  have h6 : (Pipeline.withArrays (cfgs 0).spec c (V0 m c) (fun w => (dats m 0 c).arrAt w (cfgs 0).N) (Proc.devRef .tc main_v7_1) : S65536x1.Idx → EReal) = col1 m c :=
    (Pipeline.withArrays_arr spec0 launch0.win.arr_inj c _ _ 6).trans (final6 m c)
  unfold Pipeline.afterTail₀
  show StableHlo.after hostOps1 _ (Proc.devRef .tc main_v8) = _
  after_results
  exact congrArg₂ joined h5 h6

/-- THE RUN, READ: the result buffer at `result`, the arguments as launched. -/
theorem run : θ_run defs (onTc (τ := τ) (main (F := Ideal))) ⟨m, fun _ => 0, ρ⟩ fun r => ∀ c : Dev nD,
      r.2.mem ((c.tc : Thread nD τ).loc main_v8) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v8 (Pipeline.mem_restRefs_of main_v8 (by decide) (by decide))).trans (tail_eq m c),
      ((h c).1 1).trans (((dats m 0 c).arrAt_in 1 rfl _).trans ((A_eq m c 1).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.Bilinear.KernelRun

end
-- ==== Proof.RefScore.lean ====
/-
  The reference program's two columns are the specification's scores.

  The reference forms node · W by one contraction, multiplies it entry by entry with the context array, sums each row
  from the initial value 0, writes the sums as a column and adds the one-entry bias, broadcast to the column. Read at
  (r, q) this is Σ_j (Σ_k node(r,k) · W(k,j)) · c(r,j) + b: the specification's row score, c being the context array
  itself for the first column and the shifted context for the second. W (the reshaped weights) and the shifted context
  stay unopened on both sides; the result is the two columns joined along the rows.
-/
import proofs.«132694_j23003844838033_1_alg».proof.Proof.Gen.ReferenceIdeal.Read
import proofs.«132694_j23003844838033_1_alg».proof.Proof.Score

noncomputable section

namespace Cert.Bilinear.Ref

open Cert.ReferenceIdeal Cert.ReferenceIdeal.Gen Cert.ReferenceIdeal.Read Idealize.ShloMosaic Idealize.ShloMosaic.ValueIdx Cert.Bilinear

variable (x0 x1 : (⟨S65536x1024, .f32⟩ : BufTy).Contents (Elt Ideal)) (x2 : (⟨S1x1024x1024, .f32⟩ : BufTy).Contents (Elt Ideal))
  (x3 : (⟨S1, .f32⟩ : BufTy).Contents (Elt Ideal))

/-- Entry (r, j) of node · W: the sum over the contracted axis of the operands' products. -/
theorem v1_ix2 (r : Fin 65536) (j : Fin 1024) :
    val_main_v1 (F := Ideal) x1 x2 (ix2 r j) = ∑ k : Fin 1024, x1 (ix2 r k) * val_main_v0 (F := Ideal) x2 (ix2 k j) := by
  rw [val_main_v1_apply]
  refine Finset.sum_congr rfl fun k _ => ?_
  have el : lidx_main_v1 (ix2 r j) k = ix2 r k :=
    funext fun a => Fin.ext (by match a with | ⟨0, _⟩ => rfl | ⟨1, _⟩ => rfl)
  have er : ridx_main_v1 (ix2 r j) k = ix2 k j :=
    funext fun a => Fin.ext (by match a with | ⟨0, _⟩ => rfl | ⟨1, _⟩ => rfl)
  rw [el, er]

/-- The bias read through its two broadcasts is its one entry. -/
theorem bias_ix (i : S1.Idx) : x3 i = x3 (ix1 0) :=
  congrArg x3 (funext fun a => Fin.ext (by
    match a with
    | ⟨0, _⟩ =>
      have h : (i ⟨0, Nat.one_pos⟩).val < 1 := (i ⟨0, Nat.one_pos⟩).isLt
      show (i ⟨0, Nat.one_pos⟩).val = 0
      omega))

/-- The first column: the scores against the context rows themselves. -/
theorem first_eq : val_main_v7 (F := Ideal) x0 x1 x2 x3 = score x1 (val_main_v0 (F := Ideal) x2) (x3 (ix1 0)) x0 := by
  funext i
  obtain ⟨r, q, rfl⟩ : ∃ (r : Fin 65536) (q : Fin 1), i = ix2 r q := ⟨i 0, i 1, eq_ix2 i⟩
  rw [val_main_v7_apply, val_main_v4_apply, val_main_v3_apply, val_main_v6_apply, val_main_v5_apply, val_main_cst_apply,
    score_ix2, bias_ix x3 (idx_main_v5 _)]
  unfold rowScore
  have hs : ∀ j : Fin 1024, val_main_v2 (F := Ideal) x0 x1 x2 (idx_main_v3 (idx_main_v4 (ix2 r q)) j)
      = (∑ k : Fin 1024, x1 (ix2 r k) * val_main_v0 (F := Ideal) x2 (ix2 k j)) * x0 (ix2 r j) := fun j => by
    have e : idx_main_v3 (idx_main_v4 (ix2 r q)) j = ix2 r j :=
      funext fun a => Fin.ext (by match a with | ⟨0, _⟩ => rfl | ⟨1, _⟩ => rfl)
    rw [e, val_main_v2_apply, v1_ix2]
    rfl
  rw [Finset.sum_congr rfl fun j _ => hs j]
  show Ideal.ofBits .f32 0x00000000#32 + _ + _ = _
  rw [Ideal.ofBits_zero_f32, zero_add]

/-- The second column: the scores against the context rows shifted down by one. -/
theorem second_eq : val_main_v16 (F := Ideal) x0 x1 x2 x3
    = score x1 (val_main_v0 (F := Ideal) x2) (x3 (ix1 0)) (val_main_v10 (F := Ideal) x0) := by
  funext i
  obtain ⟨r, q, rfl⟩ : ∃ (r : Fin 65536) (q : Fin 1), i = ix2 r q := ⟨i 0, i 1, eq_ix2 i⟩
  rw [val_main_v16_apply, val_main_v13_apply, val_main_v12_apply, val_main_v15_apply, val_main_v14_apply,
    val_main_cst_0_apply, score_ix2, bias_ix x3 (idx_main_v14 _)]
  unfold rowScore
  have hs : ∀ j : Fin 1024, val_main_v11 (F := Ideal) x0 x1 x2 (idx_main_v12 (idx_main_v13 (ix2 r q)) j)
      = (∑ k : Fin 1024, x1 (ix2 r k) * val_main_v0 (F := Ideal) x2 (ix2 k j)) * val_main_v10 (F := Ideal) x0 (ix2 r j) := fun j => by
    have e : idx_main_v12 (idx_main_v13 (ix2 r q)) j = ix2 r j :=
      funext fun a => Fin.ext (by match a with | ⟨0, _⟩ => rfl | ⟨1, _⟩ => rfl)
    rw [e, val_main_v11_apply, v1_ix2]
    rfl
  rw [Finset.sum_congr rfl fun j _ => hs j]
  show Ideal.ofBits .f32 0x00000000#32 + _ + _ = _
  rw [Ideal.ofBits_zero_f32, zero_add]

/-- The result: the two columns joined along the rows. -/
theorem result_eq : val_main_v17 (F := Ideal) x0 x1 x2 x3
    = concatenate S131072x1 0 [⟨S65536x1, score x1 (val_main_v0 (F := Ideal) x2) (x3 (ix1 0)) x0⟩,
        ⟨S65536x1, score x1 (val_main_v0 (F := Ideal) x2) (x3 (ix1 0)) (val_main_v10 (F := Ideal) x0)⟩]
        concatenates_S65536x1_S65536x1_S131072x1_d0 := by
  unfold val_main_v17
  rw [first_eq, second_eq]

end Cert.Bilinear.Ref

end
-- ==== Proof.lean ====
/- The certificate of the bilinear-score kernel against its reference, over the extended reals.

   Both programs compute, for every row r of the node embeddings,
       Σ_j (Σ_k node(r,k) · W(k,j)) · c(r,j) + b
   once with c the context rows and once with c the context rows shifted down by one, and join the two columns along
   the rows. The kernel does it block by block of 512 rows (one matrix product per block, reused for both columns, its
   operands passed through a narrower float format, which is the identity on exact values); the reference does it with
   one whole matrix product. The two form the same sums of the same products, so the claim needs no finiteness and no
   algebraic law beyond reading each operation at an index:
   * Proof/Score.lean     — the specification `score`;
   * Proof/Payload.lean   — the kernel body's two stored values at an index;
   * Proof/Blocks.lean    — from the grid's blocks to the kernel's two result arrays: each is a `score` column;
   * Proof/KernelRun.lean — the host operation after the region joins them: the kernel's run, read;
   * Proof/RefScore.lean  — the reference's two columns are the same `score` columns;
   and here the five conjuncts: the three frames (the two kernels' are generated whole; the reference's is its generated
   run with the result dropped), `preserves` (the idealization rewrote nothing) and `algebraic` (both runs end at one term). -/
import proofs.«132694_j23003844838033_1_alg».proof.Defs
import proofs.«132694_j23003844838033_1_alg».proof.Proof.Gen.Kernel
import proofs.«132694_j23003844838033_1_alg».proof.Proof.Gen.Kernel.Skeleton
import proofs.«132694_j23003844838033_1_alg».proof.Proof.Gen.Kernel.Launch
import proofs.«132694_j23003844838033_1_alg».proof.Proof.Gen.Kernel.Points
import proofs.«132694_j23003844838033_1_alg».proof.Proof.Gen.Kernel.Frame
import proofs.«132694_j23003844838033_1_alg».proof.Proof.Gen.KernelIdeal
import proofs.«132694_j23003844838033_1_alg».proof.Proof.Gen.KernelIdeal.Skeleton
import proofs.«132694_j23003844838033_1_alg».proof.Proof.Gen.KernelIdeal.Launch
import proofs.«132694_j23003844838033_1_alg».proof.Proof.Gen.KernelIdeal.Points
import proofs.«132694_j23003844838033_1_alg».proof.Proof.Gen.KernelIdeal.Frame
import proofs.«132694_j23003844838033_1_alg».proof.Proof.Gen.ReferenceIdeal
import proofs.«132694_j23003844838033_1_alg».proof.Proof.Gen.ReferenceIdeal.Run
import proofs.«132694_j23003844838033_1_alg».proof.Proof.Gen.ReferenceIdeal.Read
import proofs.«132694_j23003844838033_1_alg».proof.Proof.Gen.Pre_finite_inputs
import proofs.«132694_j23003844838033_1_alg».proof.Proof.KernelRun
import proofs.«132694_j23003844838033_1_alg».proof.Proof.RefScore
import Idealize.ShloMosaic.Adequacy
import Idealize.ShloMosaic.Init

noncomputable section

namespace Cert.Proof

open Idealize.ShloMosaic Idealize.SL.Sem Idealize.ShloMosaic.ValueIdx

/-- The kernel as printed runs, faults nowhere and leaves its arguments unchanged. -/
theorem frame_k : Cert.frame_Kernel := fun m ρ _ => Cert.Kernel.Gen.frame m ρ

/-- So does its exact reading. -/
theorem frame_ki : Cert.frame_KernelIdeal := fun m ρ _ => Cert.KernelIdeal.Gen.frame m ρ

/-- So does the reference: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The exact reading rewrote no operation of the kernel. -/
theorem preserves : Cert.preserves_Kernel_KernelIdeal := trivial

/-- The reference's joined columns, written over the kernel's arguments, are the kernel's result: the same two `score`
    columns (the reshaped weights and the shifted context are one term on both sides), joined by the same operation. -/
theorem joined_eq (m : (ℓ : Loc Cert.KernelIdeal.nD Cert.KernelIdeal.τ Cert.KernelIdeal.sig) → Buf (Elt Ideal) ℓ) (c : Dev Cert.KernelIdeal.nD) :
    Cert.ReferenceIdeal.Read.val_main_v17 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
      = Cert.Bilinear.KernelRun.result m c :=
  (Cert.Bilinear.Ref.result_eq _ _ _ _).trans rfl

/-- From memories that agree on the arguments both exact programs end with the same result: the kernel's run ends at
    the joined `score` columns, the reference's run at its composed term, which is those columns. -/
theorem algebraic : Cert.algebraic_KernelIdeal_ReferenceIdeal := by
  intro m ρ m' ρ' _ hagree
  refine ⟨fun c => Cert.Bilinear.KernelRun.result m c, Cert.Bilinear.KernelRun.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact (Cert.ReferenceIdeal.Read.val_main_v17_eq _ _ _ _).trans (joined_eq m c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
